-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x197x196x768 : Shape := ⟨4, ![8, 197, 196, 768]⟩
abbrev S64x768 : Shape := ⟨2, ![64, 768]⟩
abbrev S196x64 : Shape := ⟨2, ![196, 64]⟩
abbrev S_ : Shape := ⟨0, ![]⟩

class Facts : Prop where
  bcast_S_S8x197x196x768 : S_.BroadcastsInDim S8x197x196x768 (![] : Fin 0 → Fin S8x197x196x768.rank)
  reducesTo_S8x197x196x768_S_d0_1_2_3 : S8x197x196x768.ReducesTo [0, 1, 2, 3] S_
  h_S_ : 0 < S_.numel
  bcast_S_S64x768 : S_.BroadcastsInDim S64x768 (![] : Fin 0 → Fin S64x768.rank)
  reducesTo_S64x768_S_d0_1 : S64x768.ReducesTo [0, 1] S_
  bcast_S_S196x64 : S_.BroadcastsInDim S196x64 (![] : Fin 0 → Fin S196x64.rank)
  reducesTo_S196x64_S_d0_1 : S196x64.ReducesTo [0, 1] S_

variable [Facts]

def fn {F : FTy → Type} [FloatOps F] (main_arg0 : FVec F S8x197x196x768 .f32) (main_arg1 : FVec F S64x768 .f32) (main_arg2 : FVec F S196x64 .f32) : IVec S_ 1 :=
  let main_v0 : FVec F S8x197x196x768 .f32 := Host.absf main_arg0
  let main_cst : FVec F S_ .f32 := constant S_ .f32 0x7F800000#32
  let main_v1 : FVec F S8x197x196x768 .f32 := broadcastInDim S8x197x196x768 ![] bcast_S_S8x197x196x768 main_cst
  let main_v2 : IVec S8x197x196x768 1 := cmpf .olt main_v0 main_v1
  let main_c : IVec S_ 1 := constantI S_ 1 1#1
  let main_v3 : IVec S_ 1 := (fun x v => Host.reduce IntOp.andi x v reducesTo_S8x197x196x768_S_d0_1_2_3 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S196x64 .f32 := Host.absf main_arg2
  let main_cst_2 : FVec F S_ .f32 := constant S_ .f32 0x7F800000#32
  let main_v10 : FVec F S196x64 .f32 := broadcastInDim S196x64 ![] bcast_S_S196x64 main_cst_2
  let main_v11 : IVec S196x64 1 := cmpf .olt main_v9 main_v10
  let main_c_3 : IVec S_ 1 := constantI S_ 1 1#1
  let main_v12 : IVec S_ 1 := (fun x v => Host.reduce IntOp.andi x v reducesTo_S196x64_S_d0_1 h_S_) main_v11 main_c_3
  let main_v13 : IVec S_ 1 := andi main_v8 main_v12
  main_v13
-- ==== Kernel.lean ====
abbrev S8x197x196x768 : Shape := ⟨4, ![8, 197, 196, 768]⟩
abbrev S64x768 : Shape := ⟨2, ![64, 768]⟩
abbrev S196x64 : Shape := ⟨2, ![196, 64]⟩
abbrev S1576x196x768 : Shape := ⟨3, ![1576, 196, 768]⟩
abbrev S1576x64x64 : Shape := ⟨3, ![1576, 64, 64]⟩
abbrev S16x196x768 : Shape := ⟨3, ![16, 196, 768]⟩
abbrev S16x64x64 : Shape := ⟨3, ![16, 64, 64]⟩
abbrev S1x64x768 : Shape := ⟨3, ![1, 64, 768]⟩
abbrev S16x64x768 : Shape := ⟨3, ![16, 64, 768]⟩
abbrev S1x196x64 : Shape := ⟨3, ![1, 196, 64]⟩
abbrev S16x196x64 : Shape := ⟨3, ![16, 196, 64]⟩
abbrev S8x197x64x64 : Shape := ⟨4, ![8, 197, 64, 64]⟩

abbrev nBuf : Space → Nat
  | .hbm => 6
  | .vmem => 6
  | .smem => 0
  | _ => 0

abbrev bufTy : (tb : Table) → Fin (tcTables nBuf tb) → BufTy
  | .hbm, ⟨0, _⟩ => ⟨S8x197x196x768, .f32⟩
  | .hbm, ⟨1, _⟩ => ⟨S64x768, .f32⟩
  | .hbm, ⟨2, _⟩ => ⟨S196x64, .f32⟩
  | .hbm, ⟨3, _⟩ => ⟨S1576x196x768, .f32⟩
  | .hbm, ⟨4, _⟩ => ⟨S1576x64x64, .f32⟩
  | .hbm, ⟨5, _⟩ => ⟨S8x197x64x64, .f32⟩
  | .local _ .vmem, ⟨0, _⟩ => ⟨S16x196x768, .f32⟩
  | .local _ .vmem, ⟨1, _⟩ => ⟨S16x196x768, .f32⟩
  | .local _ .vmem, ⟨2, _⟩ => ⟨S64x768, .f32⟩
  | .local _ .vmem, ⟨3, _⟩ => ⟨S196x64, .f32⟩
  | .local _ .vmem, ⟨4, _⟩ => ⟨S16x64x64, .f32⟩
  | .local _ .vmem, ⟨5, _⟩ => ⟨S16x64x64, .f32⟩
  | _, _ => ⟨S8x197x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![99], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x196x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S196x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x197x196x768_S1576x196x768 : S8x197x196x768.ShapeCasts S1576x196x768
  inb_S16x196x768_S16x196x768_0_0_0 : ∀ a, (![0, 0, 0] : Fin 3 → Nat) a + S16x196x768.size a ≤ S16x196x768.size a
  h_S16x196x768 : 0 < S16x196x768.numel
  shapeCasts_S16x196x768_S16x196x768 : S16x196x768.ShapeCasts S16x196x768
  bitsLt_bf16_f32 : FTy.bits .bf16 < FTy.bits .f32
  inb_S64x768_S64x768_0_0 : ∀ a, (![0, 0] : Fin 2 → Nat) a + S64x768.size a ≤ S64x768.size a
  h_S64x768 : 0 < S64x768.numel
  inb_S196x64_S196x64_0_0 : ∀ a, (![0, 0] : Fin 2 → Nat) a + S196x64.size a ≤ S196x64.size a
  h_S196x64 : 0 < S196x64.numel
  shapeCasts_S64x768_S1x64x768 : S64x768.ShapeCasts S1x64x768
  shapeCasts_S1x64x768_S1x64x768 : S1x64x768.ShapeCasts S1x64x768
  broadcasts_S1x64x768_S16x64x768 : S1x64x768.Broadcasts S16x64x768
  shapeCasts_S196x64_S1x196x64 : S196x64.ShapeCasts S1x196x64
  shapeCasts_S1x196x64_S1x196x64 : S1x196x64.ShapeCasts S1x196x64
  broadcasts_S1x196x64_S16x196x64 : S1x196x64.Broadcasts S16x196x64
  inb_S16x64x64_S16x64x64_0_0_0 : ∀ a, (![0, 0, 0] : Fin 3 → Nat) a + S16x64x64.size a ≤ S16x64x64.size a
  h_S16x64x64 : 0 < S16x64x64.numel
  shapeCasts_S1576x64x64_S8x197x64x64 : S1576x64x64.ShapeCasts S8x197x64x64
  dot_S16x196x768_S16x64x768_S16x196x64_2_2_1_1_0_0_wf : DotDims.WF S16x196x768 S16x64x768 S16x196x64 [2] [2] [1] [1] [0] [0]
  dot_S16x196x64_S16x196x64_S16x64x64_1_1_2_2_0_0_wf : DotDims.WF S16x196x64 S16x196x64 S16x64x64 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x196x768.size a < S1576x196x768.size a
  hwx0_0 : ∀ i : grid0.Coords, EltTy.bits .f32 = 32 ∨ (Rect.unit (s := S1576x196x768) (fun a => cc0_transform_0 i a * S16x196x768.size a) (fun a => (Pipeline.Clip.of (cc0_transform_0 i a) (S16x196x768.size a) (S1576x196x768.size a)).extent (S16x196x768.size a)) fun a => Pipeline.Clip.inb (Pipeline.Clip.ok_of (hstart0_0 i a))).WholeWords (EltTy.packing .f32)
  hwxs0_0 : ∀ i : grid0.Coords, EltTy.bits .f32 = 32 ∨ (Rect.unit (s := S16x196x768) (fun _ => 0) (fun a => (Pipeline.Clip.of (cc0_transform_0 i a) (S16x196x768.size a) (S1576x196x768.size a)).extent (S16x196x768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S196x64.size a ≤ S196x64.size a
  hwx0_2 : ∀ i : grid0.Coords, EltTy.bits .f32 = 32 ∨ (Rect.block (s := S196x64) S196x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S16x64x64.size a < S1576x64x64.size a
  hwx0_3 : ∀ i : grid0.Coords, EltTy.bits .f32 = 32 ∨ (Rect.unit (s := S1576x64x64) (fun a => cc0_transform_3 i a * S16x64x64.size a) (fun a => (Pipeline.Clip.of (cc0_transform_3 i a) (S16x64x64.size a) (S1576x64x64.size a)).extent (S16x64x64.size a)) fun a => Pipeline.Clip.inb (Pipeline.Clip.ok_of (hstart0_3 i a))).WholeWords (EltTy.packing .f32)
  hwxs0_3 : ∀ i : grid0.Coords, EltTy.bits .f32 = 32 ∨ (Rect.unit (s := S16x64x64) (fun _ => 0) (fun a => (Pipeline.Clip.of (cc0_transform_3 i a) (S16x64x64.size a) (S1576x64x64.size a)).extent (S16x64x64.size a)) fun a => (Nat.zero_add _).trans_le (Pipeline.Clip.extent_le (Pipeline.Clip.ok_of (hstart0_3 i a)))).WholeWords (EltTy.packing .f32)

variable [Facts₀]

def dot_S16x196x768_S16x64x768_S16x196x64_2_2_1_1_0_0 : DotDims S16x196x768 S16x64x768 S16x196x64 where
  lhsContracting := [2]
  rhsContracting := [2]
  lhsNonContracting := [1]
  rhsNonContracting := [1]
  lhsBatch := [0]
  rhsBatch := [0]
  wf := dot_S16x196x768_S16x64x768_S16x196x64_2_2_1_1_0_0_wf
def dot_S16x196x64_S16x196x64_S16x64x64_1_1_2_2_0_0 : DotDims S16x196x64 S16x196x64 S16x64x64 where
  lhsContracting := [1]
  rhsContracting := [1]
  lhsNonContracting := [2]
  rhsNonContracting := [2]
  lhsBatch := [0]
  rhsBatch := [0]
  wf := dot_S16x196x64_S16x196x64_S16x64x64_1_1_2_2_0_0_wf

abbrev win0_0 : Pipeline.Window sig grid0 :=
  Pipeline.Window.ofSpecClip (Memref.whole main_v0) S16x196x768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S196x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v1) S16x64x64.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x197x196x768 : Shape := ⟨4, ![8, 197, 196, 768]⟩
abbrev S64x768 : Shape := ⟨2, ![64, 768]⟩
abbrev S196x64 : Shape := ⟨2, ![196, 64]⟩
abbrev S64x8x197x196 : Shape := ⟨4, ![64, 8, 197, 196]⟩
abbrev S8x197x64x196 : Shape := ⟨4, ![8, 197, 64, 196]⟩
abbrev S8x197x64x64 : Shape := ⟨4, ![8, 197, 64, 64]⟩

abbrev nBuf : Space → Nat
  | .hbm => 6
  | .vmem => 0
  | .smem => 0
  | _ => 0

abbrev bufTy : (tb : Table) → Fin (tcTables nBuf tb) → BufTy
  | .hbm, ⟨0, _⟩ => ⟨S8x197x196x768, .f32⟩
  | .hbm, ⟨1, _⟩ => ⟨S64x768, .f32⟩
  | .hbm, ⟨2, _⟩ => ⟨S196x64, .f32⟩
  | .hbm, ⟨3, _⟩ => ⟨S64x8x197x196, .f32⟩
  | .hbm, ⟨4, _⟩ => ⟨S8x197x64x196, .f32⟩
  | .hbm, ⟨5, _⟩ => ⟨S8x197x64x64, .f32⟩
  | _, _ => ⟨S8x197x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S64x8x197x196_S8x197x64x196_1_2_0_3 : S64x8x197x196.Transposes [1, 2, 0, 3] S8x197x64x196
  dot_S64x768_S8x197x196x768_S64x8x197x196_1_3_0_012_n_n_wf : DotDims.WF S64x768 S8x197x196x768 S64x8x197x196 [1] [3] [0] [0, 1, 2] [] []
  dot_S8x197x64x196_S196x64_S8x197x64x64_3_0_012_1_n_n_wf : DotDims.WF S8x197x64x196 S196x64 S8x197x64x64 [3] [0] [0, 1, 2] [1] [] []

variable [Facts₀]

def dot_S64x768_S8x197x196x768_S64x8x197x196_1_3_0_012_n_n : DotDims S64x768 S8x197x196x768 S64x8x197x196 where
  lhsContracting := [1]
  rhsContracting := [3]
  lhsNonContracting := [0]
  rhsNonContracting := [0, 1, 2]
  lhsBatch := []
  rhsBatch := []
  wf := dot_S64x768_S8x197x196x768_S64x8x197x196_1_3_0_012_n_n_wf
def dot_S8x197x64x196_S196x64_S8x197x64x64_3_0_012_1_n_n : DotDims S8x197x64x196 S196x64 S8x197x64x64 where
  lhsContracting := [3]
  rhsContracting := [0]
  lhsNonContracting := [0, 1, 2]
  rhsNonContracting := [1]
  lhsBatch := []
  rhsBatch := []
  wf := dot_S8x197x64x196_S196x64_S8x197x64x64_3_0_012_1_n_n_wf

class Facts : Prop extends Facts₀ where

variable [Facts]
-- ==== Proof.BodyBits.lean ====
/-
  The kernel body's triple, at any float instance.

  The body loads the three input staging buffers whole (a block of sixteen 196 × 768 matrices, the
  64 × 768 factor, the 196 × 64 factor), computes one value from them, loads the output staging buffer
  (a value it never uses) and overwrites that buffer whole with the computed value.  So whatever the
  output buffer held, after the body it holds the computed value of the three inputs' contents, and
  the inputs' buffers hold what they held.
-/
import proofs.«168284_j31636729102794_2_alg».proof.Proof.Gen.Kernel.Launch
import proofs.«168284_j31636729102794_2_alg».proof.Proof.Gen.Kernel.Skeleton
import proofs.«168284_j31636729102794_2_alg».proof.Proof.Gen.Kernel.Points
import proofs.«168284_j31636729102794_2_alg».proof.Proof.Gen.Kernel.Frame
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each is its buffer, whole -/

abbrev rx : Rect S16x196x768 := Rect.unit (s := S16x196x768) ![0, 0, 0] S16x196x768.size inb_S16x196x768_S16x196x768_0_0_0
abbrev ra : Rect S64x768 := Rect.unit (s := S64x768) ![0, 0] S64x768.size inb_S64x768_S64x768_0_0
abbrev rb : Rect S196x64 := Rect.unit (s := S196x64) ![0, 0] S196x64.size inb_S196x64_S196x64_0_0
abbrev ro : Rect S16x64x64 := Rect.unit (s := S16x64x64) ![0, 0, 0] S16x64x64.size inb_S16x64x64_S16x64x64_0_0_0

/-- What the output staging buffer holds after the body, from the three inputs' contents: its one store, of the
    computed value of the three loads. -/
def outBlock (x : Vec F S16x196x768 .f32) (a : Vec F S64x768 .f32) (b : Vec F S196x64 .f32) : Vec F S16x64x64 .f32 :=
  View.canon [⟨ro, k0_pay1 (View.ld x rx) (View.ld a ra) (View.ld b rb)⟩]

/-- The one store covers the output buffer. -/
theorem outCover (p0 : Vec F S16x64x64 .f32) (y : S16x64x64.Idx) :
    ∃ pc ∈ ([⟨ro, p0⟩] : List (View.Piece (Elt F) S16x64x64 .f32)), y ∈ pc.1.set :=
  View.cover_of_tiled [⟨ro, p0⟩] S16x64x64.size (by rfl) y

set_option maxHeartbeats 1000000 in
/-- The body on whole staging memrefs — the inputs' at contents `x`, `a`, `b`, the output's at anything — runs to the
    continuation holding the inputs' as they were and the output's at `outBlock x a b`. -/
theorem sound_kernel (c : Dev nD) (E : Set ℕ) (i : grid0.Coords)
    (arg1 : Memref sig .tc .vmem S16x196x768 .f32) (harg1 : arg1.IsWhole)
    (arg2 : Memref sig .tc .vmem S64x768 .f32) (harg2 : arg2.IsWhole)
    (arg3 : Memref sig .tc .vmem S196x64 .f32) (harg3 : arg3.IsWhole)
    (arg4 : Memref sig .tc .vmem S16x64x64 .f32) (harg4 : arg4.IsWhole)
    (x : Vec F S16x196x768 .f32) (a : Vec F S64x768 .f32) (b : Vec F S196x64 .f32) (K : PUnit → sProp 𝕄) :
    iprop(owns (c : Thread nD τ) arg1 fullShare x ∗ owns (c : Thread nD τ) arg2 fullShare a
        ∗ owns (c : Thread nD τ) arg3 fullShare b ∗ (∃ d, owns (c : Thread nD τ) arg4 fullShare d)
        ∗ (iprop(owns (c : Thread nD τ) arg1 fullShare x ∗ owns (c : Thread nD τ) arg2 fullShare a
            ∗ owns (c : Thread nD τ) arg3 fullShare b ∗ owns (c : Thread nD τ) arg4 fullShare (outBlock x a b)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

end Cert.Kernel.Hand

end
-- ==== Proof.DataBits.lean ====
/-
  The proof data of the one pipeline, and the body obligation at every grid point, at any float instance.

  The grid has 99 points; point `t` works on matrices 16 t … 16 t + 15 of the 1576.  Since 1576 = 98 · 16 + 8,
  the last point's block of the input `x` and of the output overhangs its array by eight matrices: its fetch
  fills only the first eight matrices of the staging buffer (the rest holds words nothing names), and its
  write-back writes only the first eight matrices of the output staging buffer.

  So the proof data says, after the body at point `t`: the buffer of `x` holds the block of `x` there (filled
  out, where the block overhangs, with a word the obligation never states), the two factors' buffers hold the
  factors, and the output buffer holds the body's value of those.  The obligation for the two overhanging windows
  is stated on the part of the buffer the transfers move; for the output that needs the body's value on that part
  to depend only on the part of `x` that was fetched (`hloc` below), which the second half of this file assumes
  and the first half (the output window forgotten: enough for a frame) does not.
-/
import proofs.«168284_j31636729102794_2_alg».proof.Proof.BodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The word that fills out an overhanging block of `x`: zero.  Nothing reads it. -/
def padX : S16x196x768.Idx → Elt F .f32 := fun _ => Scalar.ofBits .f32 0#32

/-- The block of `x` at point `t`, filled out to the whole staging buffer. -/
def xfull (c : Dev nD) (t : Fin cfg0.N) : S16x196x768.Idx → Elt F .f32 :=
  win0_0.fill (grid0.coords t) padX (iblk m c 0 t)

/-- The proof data on core `c`: the arrays as the region finds them; after the body at point `t` the buffer of `x` at
    its block filled out, the factors' buffers at the factors, the output's at the body's value of the three. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => outBlock (xfull m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (xfull m c t) (iblk m c 1 t) (iblk m c 2 t) := by dsimp only [dats]

/-- `x` is fetched at every point: the body finds its block on the part the fetch fills, anything elsewhere. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- The factors are fetched once and found at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The output's buffer is written back at every point: the body finds anything in it. -/
theorem before0_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The body at a point -/

/-- The body at point `t`, from the buffers as the pipeline hands them over. -/
theorem sound_point (c : Dev nD) (t : Fin cfg0.N) (d0 : S16x196x768.Idx → Elt F .f32) (d3 : S16x64x64.Idx → Elt F .f32)
    (K : PUnit → sProp 𝕄) :
    iprop(owns (c : Thread nD τ) (st0_0 t) fullShare (win0_0.fill (grid0.coords t) d0 (iblk m c 0 t))
        ∗ owns (c : Thread nD τ) (st0_1 t) fullShare (iblk m c 1 t)
        ∗ owns (c : Thread nD τ) (st0_2 t) fullShare (iblk m c 2 t)
        ∗ owns (c : Thread nD τ) (st0_3 t) fullShare d3
        ∗ (iprop(owns (c : Thread nD τ) (st0_0 t) fullShare (win0_0.fill (grid0.coords t) d0 (iblk m c 0 t))
            ∗ owns (c : Thread nD τ) (st0_1 t) fullShare (iblk m c 1 t)
            ∗ owns (c : Thread nD τ) (st0_2 t) fullShare (iblk m c 2 t)
            ∗ owns (c : Thread nD τ) (st0_3 t) fullShare
                (outBlock (win0_0.fill (grid0.coords t) d0 (iblk m c 0 t)) (iblk m c 1 t) (iblk m c 2 t))) -∗ K ⟨⟩))
      ⊢ wp frame (wpE (defs₀ (F := F)) Variants.none c none) Set.univ (bodyAt0 t) K := by
  unfold bodyAt0
  iintro ⟨H0, H1, H2, H3, Hk⟩
  iapply (sound_kernel c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iexact Hk

/-! ## The obligation with the output window forgotten -/

/-- The one window a frame need not name: the output. -/
def forgets : Fin 4 → Bool := fun w => w.val == 3

def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

def bodyPostF (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The part of `x`'s buffer the transfers move holds, after the body, the block: what the filled-out block is cut
    back to. -/
theorem cut_after0_0 (c : Dev nD) (t : Fin cfg0.N) :
    (cfg0.win 0).cut (cfg0.grid.coords t) ((dats m 0 c).after 0 t) = iblk m c 0 t := by
  rw [after0_0]; exact win0_0.cut_fill _ _ _

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF
  simp only [before0_0, before0_1, before0_2]
  rw [show (dats m 0 c).Φ t.succ = (dats m 0 c).Φ t.castSucc from rfl,
    show (dats m 0 c).owesAt () t.succ = (dats m 0 c).owesAt () t.castSucc from rfl,
    after0_1, after0_2, cut_after0_0]
  iintro ⟨HΦ, Ho, ⟨%d0, H0⟩, ⟨%d1, H1⟩, ⟨%d2, H2⟩, ⟨%d3, H3⟩⟩
  iapply (sound_point m c t d0 d3 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists _; iexact H3

/-- The library's body obligation with the output window forgotten, at every point. -/
theorem body_obligationF (c : Dev nD) :
    BodyObligationLoose (dats (F := F) m 0 c) (defs₀ (F := F)) Variants.none () Set.univ forgets := fun t => by
  rw [bigSep_W0, bigSep_W0]
  exact sound_bodyF m c t

/-! ## The obligation with the output named, where the body's value is local to the fetched part -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t)))))

/-- What the write-back moves of the body's value does not depend on what fills out the block of `x`. -/
def Local : Prop := ∀ (c : Dev nD) (t : Fin cfg0.N) (d0 : S16x196x768.Idx → Elt F .f32),
  win0_3.cut (grid0.coords t) (outBlock (win0_0.fill (grid0.coords t) d0 (iblk m c 0 t)) (iblk m c 1 t) (iblk m c 2 t))
    = win0_3.cut (grid0.coords t) (outBlock (xfull m c t) (iblk m c 1 t) (iblk m c 2 t))

theorem sound_body (hloc : Local m) (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).Φ t.succ = (dats m 0 c).Φ t.castSucc from rfl,
    show (dats m 0 c).owesAt () t.succ = (dats m 0 c).owesAt () t.castSucc from rfl,
    after0_1, after0_2, after0_3, cut_after0_0]
  iintro ⟨HΦ, Ho, ⟨%d0, H0⟩, ⟨%d1, H1⟩, ⟨%d2, H2⟩, ⟨%d3, H3⟩⟩
  iapply (sound_point m c t d0 d3 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists (outBlock (win0_0.fill (grid0.coords t) d0 (iblk m c 0 t)) (iblk m c 1 t) (iblk m c 2 t))
  have e : (cfg0.win 3).fill (cfg0.grid.coords t)
        (outBlock (win0_0.fill (grid0.coords t) d0 (iblk m c 0 t)) (iblk m c 1 t) (iblk m c 2 t))
        ((cfg0.win 3).cut (cfg0.grid.coords t) (outBlock (xfull m c t) (iblk m c 1 t) (iblk m c 2 t)))
      = outBlock (win0_0.fill (grid0.coords t) d0 (iblk m c 0 t)) (iblk m c 1 t) (iblk m c 2 t) :=
    win0_3.fill_congr_cut (grid0.coords t) (hloc c t d0)
  rw [e]
  iexact H3

/-- The library's body obligation, at every point. -/
theorem body_obligation (hloc : Local m) (c : Dev nD) :
    BodyObligationLoose (dats (F := F) m 0 c) (defs₀ (F := F)) Variants.none () Set.univ := fun t => by
  rw [bigSep_W0, bigSep_W0]
  exact sound_body m hloc c t

end Cert.Kernel.Hand

end
-- ==== Proof.FrameBits.lean ====
/-
  The frame of the word-level kernel: it runs to the end, faults nowhere, and leaves its three argument arrays
  as they were.

  Nothing is said of the output here, so the output window is forgotten: the body is handed its staging buffer at
  any contents and hands it back at any contents.  The lines after the region (one reshape of the kernel's result
  into the program's result) write only that last buffer, of which the post says nothing either.  The first
  argument is staged by no window (the region reads a reshape of it) and is found unchanged as a buffer the region
  passes by; the two factors are inputs of the pipeline, never written.
-/
import proofs.«168284_j31636729102794_2_alg».proof.Proof.DataBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The one buffer the lines after the region write: the program's result. -/
def tailWrites : Finset (Ref sig .tc) := {main_v2}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  by_contra hne
  exact StableHlo.devRef_ne_of_ne (fun e => hne (Finset.mem_singleton.mpr e)) hb

set_option backward.isDefEq.respectTransparency.types false in
/-- Every weakly fair execution of @main terminates; the pipeline's input arrays end as they were found and every
    buffer the region passes by, but the one the later lines write, as the region found it. -/
theorem run_frame : θ_run defs (onTc (τ := τ) (main (F := F))) (s₀ m ρ)
    (Pipeline.RDat.FramePostR (cfgs 0) (fun c => (dats m 0 c).toRForget forgets) tailWrites (V m)) :=
  Pipeline.RDat.θ_run_frame_around_T cfgs (0 : Fin 1) launch0 defs₀ Variants.none
    (fun c => (dats m 0 c).toRForget forgets) tailWrites m ρ main
    (hbody := fun c => (body_obligationF m c).toRForget)
    (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide),
        fun hm => absurd (Finset.mem_singleton.mp hm) (by decide)⟩)).trans (V_main_arg0 m c),
     (Eq.mp (congrFun (((dats m 0 c).toRForget forgets).ArrAt_in 1 rfl _) _) ((h c).1 1)).trans
        ((A_eq m c 1).trans (V_main_arg1 m c)),
     (Eq.mp (congrFun (((dats m 0 c).toRForget forgets).ArrAt_in 2 rfl _) _) ((h c).1 2)).trans
        ((A_eq m c 2).trans (V_main_arg2 m c))⟩) (run_frame m ρ)

end Cert.Kernel.Hand

end
-- ==== Proof.BodyIdeal.lean ====
/-
  The kernel body's triple, at any float instance.

  The body loads the three input staging buffers whole (a block of sixteen 196 × 768 matrices, the
  64 × 768 factor, the 196 × 64 factor), computes one value from them, loads the output staging buffer
  (a value it never uses) and overwrites that buffer whole with the computed value.  So whatever the
  output buffer held, after the body it holds the computed value of the three inputs' contents, and
  the inputs' buffers hold what they held.
-/
import proofs.«168284_j31636729102794_2_alg».proof.Proof.Gen.KernelIdeal.Launch
import proofs.«168284_j31636729102794_2_alg».proof.Proof.Gen.KernelIdeal.Skeleton
import proofs.«168284_j31636729102794_2_alg».proof.Proof.Gen.KernelIdeal.Points
import proofs.«168284_j31636729102794_2_alg».proof.Proof.Gen.KernelIdeal.Frame
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each is its buffer, whole -/

abbrev rx : Rect S16x196x768 := Rect.unit (s := S16x196x768) ![0, 0, 0] S16x196x768.size inb_S16x196x768_S16x196x768_0_0_0
abbrev ra : Rect S64x768 := Rect.unit (s := S64x768) ![0, 0] S64x768.size inb_S64x768_S64x768_0_0
abbrev rb : Rect S196x64 := Rect.unit (s := S196x64) ![0, 0] S196x64.size inb_S196x64_S196x64_0_0
abbrev ro : Rect S16x64x64 := Rect.unit (s := S16x64x64) ![0, 0, 0] S16x64x64.size inb_S16x64x64_S16x64x64_0_0_0

/-- What the output staging buffer holds after the body, from the three inputs' contents: its one store, of the
    computed value of the three loads. -/
def outBlock (x : Vec F S16x196x768 .f32) (a : Vec F S64x768 .f32) (b : Vec F S196x64 .f32) : Vec F S16x64x64 .f32 :=
  View.canon [⟨ro, k0_pay1 (View.ld x rx) (View.ld a ra) (View.ld b rb)⟩]

/-- The one store covers the output buffer. -/
theorem outCover (p0 : Vec F S16x64x64 .f32) (y : S16x64x64.Idx) :
    ∃ pc ∈ ([⟨ro, p0⟩] : List (View.Piece (Elt F) S16x64x64 .f32)), y ∈ pc.1.set :=
  View.cover_of_tiled [⟨ro, p0⟩] S16x64x64.size (by rfl) y

set_option maxHeartbeats 1000000 in
/-- The body on whole staging memrefs — the inputs' at contents `x`, `a`, `b`, the output's at anything — runs to the
    continuation holding the inputs' as they were and the output's at `outBlock x a b`. -/
theorem sound_kernel (c : Dev nD) (E : Set ℕ) (i : grid0.Coords)
    (arg1 : Memref sig .tc .vmem S16x196x768 .f32) (harg1 : arg1.IsWhole)
    (arg2 : Memref sig .tc .vmem S64x768 .f32) (harg2 : arg2.IsWhole)
    (arg3 : Memref sig .tc .vmem S196x64 .f32) (harg3 : arg3.IsWhole)
    (arg4 : Memref sig .tc .vmem S16x64x64 .f32) (harg4 : arg4.IsWhole)
    (x : Vec F S16x196x768 .f32) (a : Vec F S64x768 .f32) (b : Vec F S196x64 .f32) (K : PUnit → sProp 𝕄) :
    iprop(owns (c : Thread nD τ) arg1 fullShare x ∗ owns (c : Thread nD τ) arg2 fullShare a
        ∗ owns (c : Thread nD τ) arg3 fullShare b ∗ (∃ d, owns (c : Thread nD τ) arg4 fullShare d)
        ∗ (iprop(owns (c : Thread nD τ) arg1 fullShare x ∗ owns (c : Thread nD τ) arg2 fullShare a
            ∗ owns (c : Thread nD τ) arg3 fullShare b ∗ owns (c : Thread nD τ) arg4 fullShare (outBlock x a b)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

end Cert.KernelIdeal.Hand

end
-- ==== Proof.DataIdeal.lean ====
/-
  The proof data of the one pipeline, and the body obligation at every grid point, at any float instance.

  The grid has 99 points; point `t` works on matrices 16 t … 16 t + 15 of the 1576.  Since 1576 = 98 · 16 + 8,
  the last point's block of the input `x` and of the output overhangs its array by eight matrices: its fetch
  fills only the first eight matrices of the staging buffer (the rest holds words nothing names), and its
  write-back writes only the first eight matrices of the output staging buffer.

  So the proof data says, after the body at point `t`: the buffer of `x` holds the block of `x` there (filled
  out, where the block overhangs, with a word the obligation never states), the two factors' buffers hold the
  factors, and the output buffer holds the body's value of those.  The obligation for the two overhanging windows
  is stated on the part of the buffer the transfers move; for the output that needs the body's value on that part
  to depend only on the part of `x` that was fetched (`hloc` below), which the second half of this file assumes
  and the first half (the output window forgotten: enough for a frame) does not.
-/
import proofs.«168284_j31636729102794_2_alg».proof.Proof.BodyIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The word that fills out an overhanging block of `x`: zero.  Nothing reads it. -/
def padX : S16x196x768.Idx → Elt F .f32 := fun _ => Scalar.ofBits .f32 0#32

/-- The block of `x` at point `t`, filled out to the whole staging buffer. -/
def xfull (c : Dev nD) (t : Fin cfg0.N) : S16x196x768.Idx → Elt F .f32 :=
  win0_0.fill (grid0.coords t) padX (iblk m c 0 t)

/-- The proof data on core `c`: the arrays as the region finds them; after the body at point `t` the buffer of `x` at
    its block filled out, the factors' buffers at the factors, the output's at the body's value of the three. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => outBlock (xfull m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (xfull m c t) (iblk m c 1 t) (iblk m c 2 t) := by dsimp only [dats]

/-- `x` is fetched at every point: the body finds its block on the part the fetch fills, anything elsewhere. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- The factors are fetched once and found at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The output's buffer is written back at every point: the body finds anything in it. -/
theorem before0_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The body at a point -/

/-- The body at point `t`, from the buffers as the pipeline hands them over. -/
theorem sound_point (c : Dev nD) (t : Fin cfg0.N) (d0 : S16x196x768.Idx → Elt F .f32) (d3 : S16x64x64.Idx → Elt F .f32)
    (K : PUnit → sProp 𝕄) :
    iprop(owns (c : Thread nD τ) (st0_0 t) fullShare (win0_0.fill (grid0.coords t) d0 (iblk m c 0 t))
        ∗ owns (c : Thread nD τ) (st0_1 t) fullShare (iblk m c 1 t)
        ∗ owns (c : Thread nD τ) (st0_2 t) fullShare (iblk m c 2 t)
        ∗ owns (c : Thread nD τ) (st0_3 t) fullShare d3
        ∗ (iprop(owns (c : Thread nD τ) (st0_0 t) fullShare (win0_0.fill (grid0.coords t) d0 (iblk m c 0 t))
            ∗ owns (c : Thread nD τ) (st0_1 t) fullShare (iblk m c 1 t)
            ∗ owns (c : Thread nD τ) (st0_2 t) fullShare (iblk m c 2 t)
            ∗ owns (c : Thread nD τ) (st0_3 t) fullShare
                (outBlock (win0_0.fill (grid0.coords t) d0 (iblk m c 0 t)) (iblk m c 1 t) (iblk m c 2 t))) -∗ K ⟨⟩))
      ⊢ wp frame (wpE (defs₀ (F := F)) Variants.none c none) Set.univ (bodyAt0 t) K := by
  unfold bodyAt0
  iintro ⟨H0, H1, H2, H3, Hk⟩
  iapply (sound_kernel c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iexact Hk

/-! ## The obligation with the output window forgotten -/

/-- The one window a frame need not name: the output. -/
def forgets : Fin 4 → Bool := fun w => w.val == 3

def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

def bodyPostF (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The part of `x`'s buffer the transfers move holds, after the body, the block: what the filled-out block is cut
    back to. -/
theorem cut_after0_0 (c : Dev nD) (t : Fin cfg0.N) :
    (cfg0.win 0).cut (cfg0.grid.coords t) ((dats m 0 c).after 0 t) = iblk m c 0 t := by
  rw [after0_0]; exact win0_0.cut_fill _ _ _

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF
  simp only [before0_0, before0_1, before0_2]
  rw [show (dats m 0 c).Φ t.succ = (dats m 0 c).Φ t.castSucc from rfl,
    show (dats m 0 c).owesAt () t.succ = (dats m 0 c).owesAt () t.castSucc from rfl,
    after0_1, after0_2, cut_after0_0]
  iintro ⟨HΦ, Ho, ⟨%d0, H0⟩, ⟨%d1, H1⟩, ⟨%d2, H2⟩, ⟨%d3, H3⟩⟩
  iapply (sound_point m c t d0 d3 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists _; iexact H3

/-- The library's body obligation with the output window forgotten, at every point. -/
theorem body_obligationF (c : Dev nD) :
    BodyObligationLoose (dats (F := F) m 0 c) (defs₀ (F := F)) Variants.none () Set.univ forgets := fun t => by
  rw [bigSep_W0, bigSep_W0]
  exact sound_bodyF m c t

/-! ## The obligation with the output named, where the body's value is local to the fetched part -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t)))))

/-- What the write-back moves of the body's value does not depend on what fills out the block of `x`. -/
def Local : Prop := ∀ (c : Dev nD) (t : Fin cfg0.N) (d0 : S16x196x768.Idx → Elt F .f32),
  win0_3.cut (grid0.coords t) (outBlock (win0_0.fill (grid0.coords t) d0 (iblk m c 0 t)) (iblk m c 1 t) (iblk m c 2 t))
    = win0_3.cut (grid0.coords t) (outBlock (xfull m c t) (iblk m c 1 t) (iblk m c 2 t))

theorem sound_body (hloc : Local m) (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).Φ t.succ = (dats m 0 c).Φ t.castSucc from rfl,
    show (dats m 0 c).owesAt () t.succ = (dats m 0 c).owesAt () t.castSucc from rfl,
    after0_1, after0_2, after0_3, cut_after0_0]
  iintro ⟨HΦ, Ho, ⟨%d0, H0⟩, ⟨%d1, H1⟩, ⟨%d2, H2⟩, ⟨%d3, H3⟩⟩
  iapply (sound_point m c t d0 d3 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists (outBlock (win0_0.fill (grid0.coords t) d0 (iblk m c 0 t)) (iblk m c 1 t) (iblk m c 2 t))
  have e : (cfg0.win 3).fill (cfg0.grid.coords t)
        (outBlock (win0_0.fill (grid0.coords t) d0 (iblk m c 0 t)) (iblk m c 1 t) (iblk m c 2 t))
        ((cfg0.win 3).cut (cfg0.grid.coords t) (outBlock (xfull m c t) (iblk m c 1 t) (iblk m c 2 t)))
      = outBlock (win0_0.fill (grid0.coords t) d0 (iblk m c 0 t)) (iblk m c 1 t) (iblk m c 2 t) :=
    win0_3.fill_congr_cut (grid0.coords t) (hloc c t d0)
  rw [e]
  iexact H3

/-- The library's body obligation, at every point. -/
theorem body_obligation (hloc : Local m) (c : Dev nD) :
    BodyObligationLoose (dats (F := F) m 0 c) (defs₀ (F := F)) Variants.none () Set.univ := fun t => by
  rw [bigSep_W0, bigSep_W0]
  exact sound_body m hloc c t

end Cert.KernelIdeal.Hand

end
-- ==== Proof.PayIdeal.lean ====
/-
  The body's value at an index, over the extended reals.

  At the ideal instance a change of float format is the identity and a matrix product into a zero accumulator is
  the plain sum of products.  The body broadcasts the two factors along the block's leading axis and multiplies
  twice, batched over that axis: first over the 768 channels, then over the 196 positions.  So the entry
  (r, a, h) of what it stores is

      ∑ p < 196, (∑ k < 768, x[r, p, k] · A[a, k]) · B[p, h]

  — a function of matrix r of the block alone.
-/
import proofs.«168284_j31636729102794_2_alg».proof.Proof.BodyIdeal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## The two factors, broadcast along the leading axis, read at an index -/

/-- The 64 × 768 factor given a unit leading axis and broadcast to sixteen copies: copy `r` at (a, k) is the factor at (a, k). -/
theorem bcastA_apply {α : Type} (A : S64x768.Idx → α) (h1 : S64x768.ShapeCasts S1x64x768) (h2 : S1x64x768.ShapeCasts S1x64x768)
    (h3 : S1x64x768.Broadcasts S16x64x768) (r : Fin 16) (a : Fin 64) (k : Fin 768) :
    broadcastTo S16x64x768 (shapeCast S1x64x768 (shapeCast S1x64x768 A h1) h2) h3 (ix3 r a k) = A (ix2 a k) := by
  rw [shapeCast_self]
  refine (broadcastTo_apply _ h3 (ix3 r a k) (ix3 (0 : Fin 1) a k) (fun b => by
    match b with
    | ⟨0, _⟩ => rfl
    | ⟨1, _⟩ => rfl
    | ⟨2, _⟩ => rfl)).trans ?_
  exact shapeCast_ab_1ab_apply A h1 0 a k

/-- The 196 × 64 factor likewise: copy `r` at (p, h) is the factor at (p, h). -/
theorem bcastB_apply {α : Type} (B : S196x64.Idx → α) (h1 : S196x64.ShapeCasts S1x196x64) (h2 : S1x196x64.ShapeCasts S1x196x64)
    (h3 : S1x196x64.Broadcasts S16x196x64) (r : Fin 16) (p : Fin 196) (h : Fin 64) :
    broadcastTo S16x196x64 (shapeCast S1x196x64 (shapeCast S1x196x64 B h1) h2) h3 (ix3 r p h) = B (ix2 p h) := by
  rw [shapeCast_self]
  refine (broadcastTo_apply _ h3 (ix3 r p h) (ix3 (0 : Fin 1) p h) (fun b => by
    match b with
    | ⟨0, _⟩ => rfl
    | ⟨1, _⟩ => rfl
    | ⟨2, _⟩ => rfl)).trans ?_
  exact shapeCast_ab_1ab_apply B h1 0 p h

/-! ## The operand indices of the two batched products -/

theorem lhsC_0 (i : S16x196x64.Idx) (q : dot_S16x196x768_S16x64x768_S16x196x64_2_2_1_1_0_0.contr.Idx) :
    (dot_S16x196x768_S16x64x768_S16x196x64_2_2_1_1_0_0.lhsIdx i q 0).val = (i 0).val := by
  unfold DotDims.lhsIdx
  rw [dif_pos (show (0 : Fin S16x196x768.rank) ∈ dot_S16x196x768_S16x64x768_S16x196x64_2_2_1_1_0_0.lhsBatch by decide)]
  rfl
theorem lhsC_1 (i : S16x196x64.Idx) (q : dot_S16x196x768_S16x64x768_S16x196x64_2_2_1_1_0_0.contr.Idx) :
    (dot_S16x196x768_S16x64x768_S16x196x64_2_2_1_1_0_0.lhsIdx i q 1).val = (i 1).val := by
  unfold DotDims.lhsIdx
  rw [dif_neg (show ¬(1 : Fin S16x196x768.rank) ∈ dot_S16x196x768_S16x64x768_S16x196x64_2_2_1_1_0_0.lhsBatch by decide), dif_pos (show (1 : Fin S16x196x768.rank) ∈ dot_S16x196x768_S16x64x768_S16x196x64_2_2_1_1_0_0.lhsNonContracting by decide)]
  rfl
theorem lhsC_2 (i : S16x196x64.Idx) (q : dot_S16x196x768_S16x64x768_S16x196x64_2_2_1_1_0_0.contr.Idx) :
    (dot_S16x196x768_S16x64x768_S16x196x64_2_2_1_1_0_0.lhsIdx i q 2).val = (q ⟨0, by decide⟩).val :=
  dot_S16x196x768_S16x64x768_S16x196x64_2_2_1_1_0_0.lhsIdx_val_of_single rfl i q
theorem rhsC_0 (i : S16x196x64.Idx) (q : dot_S16x196x768_S16x64x768_S16x196x64_2_2_1_1_0_0.contr.Idx) :
    (dot_S16x196x768_S16x64x768_S16x196x64_2_2_1_1_0_0.rhsIdx i q 0).val = (i 0).val := by
  unfold DotDims.rhsIdx
  rw [dif_pos (show (0 : Fin S16x64x768.rank) ∈ dot_S16x196x768_S16x64x768_S16x196x64_2_2_1_1_0_0.rhsBatch by decide)]
  rfl
theorem rhsC_1 (i : S16x196x64.Idx) (q : dot_S16x196x768_S16x64x768_S16x196x64_2_2_1_1_0_0.contr.Idx) :
    (dot_S16x196x768_S16x64x768_S16x196x64_2_2_1_1_0_0.rhsIdx i q 1).val = (i 2).val := by
  unfold DotDims.rhsIdx
  rw [dif_neg (show ¬(1 : Fin S16x64x768.rank) ∈ dot_S16x196x768_S16x64x768_S16x196x64_2_2_1_1_0_0.rhsBatch by decide), dif_pos (show (1 : Fin S16x64x768.rank) ∈ dot_S16x196x768_S16x64x768_S16x196x64_2_2_1_1_0_0.rhsNonContracting by decide)]
  rfl
theorem rhsC_2 (i : S16x196x64.Idx) (q : dot_S16x196x768_S16x64x768_S16x196x64_2_2_1_1_0_0.contr.Idx) :
    (dot_S16x196x768_S16x64x768_S16x196x64_2_2_1_1_0_0.rhsIdx i q 2).val = (q ⟨0, by decide⟩).val :=
  dot_S16x196x768_S16x64x768_S16x196x64_2_2_1_1_0_0.rhsIdx_val_of_single rfl i q
theorem lhsP_0 (i : S16x64x64.Idx) (q : dot_S16x196x64_S16x196x64_S16x64x64_1_1_2_2_0_0.contr.Idx) :
    (dot_S16x196x64_S16x196x64_S16x64x64_1_1_2_2_0_0.lhsIdx i q 0).val = (i 0).val := by
  unfold DotDims.lhsIdx
  rw [dif_pos (show (0 : Fin S16x196x64.rank) ∈ dot_S16x196x64_S16x196x64_S16x64x64_1_1_2_2_0_0.lhsBatch by decide)]
  rfl
theorem lhsP_1 (i : S16x64x64.Idx) (q : dot_S16x196x64_S16x196x64_S16x64x64_1_1_2_2_0_0.contr.Idx) :
    (dot_S16x196x64_S16x196x64_S16x64x64_1_1_2_2_0_0.lhsIdx i q 1).val = (q ⟨0, by decide⟩).val :=
  dot_S16x196x64_S16x196x64_S16x64x64_1_1_2_2_0_0.lhsIdx_val_of_single rfl i q
theorem lhsP_2 (i : S16x64x64.Idx) (q : dot_S16x196x64_S16x196x64_S16x64x64_1_1_2_2_0_0.contr.Idx) :
    (dot_S16x196x64_S16x196x64_S16x64x64_1_1_2_2_0_0.lhsIdx i q 2).val = (i 1).val := by
  unfold DotDims.lhsIdx
  rw [dif_neg (show ¬(2 : Fin S16x196x64.rank) ∈ dot_S16x196x64_S16x196x64_S16x64x64_1_1_2_2_0_0.lhsBatch by decide), dif_pos (show (2 : Fin S16x196x64.rank) ∈ dot_S16x196x64_S16x196x64_S16x64x64_1_1_2_2_0_0.lhsNonContracting by decide)]
  rfl
theorem rhsP_0 (i : S16x64x64.Idx) (q : dot_S16x196x64_S16x196x64_S16x64x64_1_1_2_2_0_0.contr.Idx) :
    (dot_S16x196x64_S16x196x64_S16x64x64_1_1_2_2_0_0.rhsIdx i q 0).val = (i 0).val := by
  unfold DotDims.rhsIdx
  rw [dif_pos (show (0 : Fin S16x196x64.rank) ∈ dot_S16x196x64_S16x196x64_S16x64x64_1_1_2_2_0_0.rhsBatch by decide)]
  rfl
theorem rhsP_1 (i : S16x64x64.Idx) (q : dot_S16x196x64_S16x196x64_S16x64x64_1_1_2_2_0_0.contr.Idx) :
    (dot_S16x196x64_S16x196x64_S16x64x64_1_1_2_2_0_0.rhsIdx i q 1).val = (q ⟨0, by decide⟩).val :=
  dot_S16x196x64_S16x196x64_S16x64x64_1_1_2_2_0_0.rhsIdx_val_of_single rfl i q
theorem rhsP_2 (i : S16x64x64.Idx) (q : dot_S16x196x64_S16x196x64_S16x64x64_1_1_2_2_0_0.contr.Idx) :
    (dot_S16x196x64_S16x196x64_S16x64x64_1_1_2_2_0_0.rhsIdx i q 2).val = (i 2).val := by
  unfold DotDims.rhsIdx
  rw [dif_neg (show ¬(2 : Fin S16x196x64.rank) ∈ dot_S16x196x64_S16x196x64_S16x64x64_1_1_2_2_0_0.rhsBatch by decide), dif_pos (show (2 : Fin S16x196x64.rank) ∈ dot_S16x196x64_S16x196x64_S16x64x64_1_1_2_2_0_0.rhsNonContracting by decide)]
  rfl

/-! ## The two products read at an index -/

/-- The product over the channels, batched over the leading axis, into zero: entry (r, p, a) is the sum over the
    channels of the left operand at (r, p, k) times the right at (r, a, k). -/
theorem prodC_apply {φ₁ φ₂ : FTy} (L : FVec Ideal S16x196x768 φ₁) (R : FVec Ideal S16x64x768 φ₂) (r : Fin 16) (p : Fin 196) (a : Fin 64) :
    matmul dot_S16x196x768_S16x64x768_S16x196x64_2_2_1_1_0_0 none L R (constant (F := Ideal) S16x196x64 .f32 0x00000000#32) (ix3 r p a)
      = ∑ k : Fin 768, L (ix3 r p k) * R (ix3 r a k) := by
  simp only [matmul]
  rw [Ideal.matmul_constant_zero_apply, ← Equiv.sum_comp (contrEquiv1 dot_S16x196x768_S16x64x768_S16x196x64_2_2_1_1_0_0 768 rfl rfl).symm]
  refine Finset.sum_congr rfl fun k _ => ?_
  have hk := contrEquiv1_symm_val dot_S16x196x768_S16x64x768_S16x196x64_2_2_1_1_0_0 768 rfl rfl k
  have el : dot_S16x196x768_S16x64x768_S16x196x64_2_2_1_1_0_0.lhsIdx (ix3 r p a) ((contrEquiv1 dot_S16x196x768_S16x64x768_S16x196x64_2_2_1_1_0_0 768 rfl rfl).symm k) = ix3 r p k := funext fun b => Fin.ext (by
    match b with
    | ⟨0, _⟩ => exact lhsC_0 _ _
    | ⟨1, _⟩ => exact lhsC_1 _ _
    | ⟨2, _⟩ => exact (lhsC_2 _ _).trans hk)
  have er : dot_S16x196x768_S16x64x768_S16x196x64_2_2_1_1_0_0.rhsIdx (ix3 r p a) ((contrEquiv1 dot_S16x196x768_S16x64x768_S16x196x64_2_2_1_1_0_0 768 rfl rfl).symm k) = ix3 r a k := funext fun b => Fin.ext (by
    match b with
    | ⟨0, _⟩ => exact rhsC_0 _ _
    | ⟨1, _⟩ => exact rhsC_1 _ _
    | ⟨2, _⟩ => exact (rhsC_2 _ _).trans hk)
  rw [el, er]

/-- The product over the positions, batched over the leading axis, into zero: entry (r, a, h) is the sum over the
    positions of the left operand at (r, p, a) times the right at (r, p, h). -/
theorem prodP_apply {φ₁ φ₂ : FTy} (L : FVec Ideal S16x196x64 φ₁) (R : FVec Ideal S16x196x64 φ₂) (r : Fin 16) (a : Fin 64) (h : Fin 64) :
    matmul dot_S16x196x64_S16x196x64_S16x64x64_1_1_2_2_0_0 none L R (constant (F := Ideal) S16x64x64 .f32 0x00000000#32) (ix3 r a h)
      = ∑ p : Fin 196, L (ix3 r p a) * R (ix3 r p h) := by
  simp only [matmul]
  rw [Ideal.matmul_constant_zero_apply, ← Equiv.sum_comp (contrEquiv1 dot_S16x196x64_S16x196x64_S16x64x64_1_1_2_2_0_0 196 rfl rfl).symm]
  refine Finset.sum_congr rfl fun p _ => ?_
  have hp := contrEquiv1_symm_val dot_S16x196x64_S16x196x64_S16x64x64_1_1_2_2_0_0 196 rfl rfl p
  have el : dot_S16x196x64_S16x196x64_S16x64x64_1_1_2_2_0_0.lhsIdx (ix3 r a h) ((contrEquiv1 dot_S16x196x64_S16x196x64_S16x64x64_1_1_2_2_0_0 196 rfl rfl).symm p) = ix3 r p a := funext fun b => Fin.ext (by
    match b with
    | ⟨0, _⟩ => exact lhsP_0 _ _
    | ⟨1, _⟩ => exact (lhsP_1 _ _).trans hp
    | ⟨2, _⟩ => exact lhsP_2 _ _)
  have er : dot_S16x196x64_S16x196x64_S16x64x64_1_1_2_2_0_0.rhsIdx (ix3 r a h) ((contrEquiv1 dot_S16x196x64_S16x196x64_S16x64x64_1_1_2_2_0_0 196 rfl rfl).symm p) = ix3 r p h := funext fun b => Fin.ext (by
    match b with
    | ⟨0, _⟩ => exact rhsP_0 _ _
    | ⟨1, _⟩ => exact (rhsP_1 _ _).trans hp
    | ⟨2, _⟩ => exact rhsP_2 _ _)
  rw [el, er]

/-! ## The body's value -/

/-- The value the body stores, at entry (r, a, h). -/
theorem pay_apply (X : Vec Ideal S16x196x768 .f32) (A : Vec Ideal S64x768 .f32) (B : Vec Ideal S196x64 .f32)
    (r : Fin 16) (a : Fin 64) (h : Fin 64) :
    k0_pay1 (F := Ideal) X A B (ix3 r a h)
      = ∑ p : Fin 196, (∑ k : Fin 768, X (ix3 r p k) * A (ix2 a k)) * B (ix2 p h) := by
  unfold k0_pay1
  refine (prodP_apply _ _ r a h).trans ?_
  refine Finset.sum_congr rfl fun p _ => ?_
  rw [bcastB_apply]
  refine congrArg (· * B (ix2 p h)) ?_
  refine (prodC_apply _ _ r p a).trans ?_
  refine Finset.sum_congr rfl fun k _ => ?_
  rw [bcastA_apply, shapeCast_self]
  rfl

/-- What the output buffer holds after the body is that value: the one store covers the buffer, and the loads
    read the buffers whole. -/
theorem outBlock_apply (X : Vec Ideal S16x196x768 .f32) (A : Vec Ideal S64x768 .f32) (B : Vec Ideal S196x64 .f32)
    (r : Fin 16) (a : Fin 64) (h : Fin 64) :
    outBlock (F := Ideal) X A B (ix3 r a h)
      = ∑ p : Fin 196, (∑ k : Fin 768, X (ix3 r p k) * A (ix2 a k)) * B (ix2 p h) := by
  have hz3 : (![0, 0, 0] : Fin 3 → Nat) = fun _ => 0 := funext fun b => by fin_cases b <;> rfl
  have hz2 : (![0, 0] : Fin 2 → Nat) = fun _ => 0 := funext fun b => by fin_cases b <;> rfl
  unfold outBlock
  rw [View.canon_unit_zero hz3]
  simp only [View.ld_unit_zero (S := S16x196x768) hz3, View.ld_unit_zero (S := S64x768) hz2, View.ld_unit_zero (S := S196x64) hz2]
  exact pay_apply X A B r a h

end Cert.KernelIdeal.Hand

end
-- ==== Proof.RunIdeal.lean ====
/-
  The idealized kernel's run, with every array named.

  Over the extended reals the body's value at entry (r, a, h) depends on matrix r of the block of `x` alone
  (Proof/PayIdeal.lean).  The write-back at a point moves the output's first matrices — as many as the fetch of `x`
  filled — so what it moves does not depend on the words that fill out an overhanging block: the output window can
  be named, and the frame run gives every array after the run.
-/
import proofs.«168284_j31636729102794_2_alg».proof.Proof.DataIdeal
import proofs.«168284_j31636729102794_2_alg».proof.Proof.PayIdeal

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The windows over the grid, decided -/

/-- At point `t` the blocks of `x` and of the output start at matrix 16 t and are cut alike: to the
    min (16, 1576 − 16 t) matrices inside the arrays; on the other axes they are whole.  The factors' blocks are the
    factors. -/
theorem grid_facts : ∀ t : Fin cfg0.N,
    win0_0.xsize (grid0.coords t) (0 : Fin 3) = win0_3.xsize (grid0.coords t) (0 : Fin 3)
    ∧ win0_0.xsize (grid0.coords t) (1 : Fin 3) = 196 ∧ win0_0.xsize (grid0.coords t) (2 : Fin 3) = 768
    ∧ win0_3.xsize (grid0.coords t) (1 : Fin 3) = 64 ∧ win0_3.xsize (grid0.coords t) (2 : Fin 3) = 64
    ∧ win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.xsize (grid0.coords t) (0 : Fin 3) = min 16 (1576 - 16 * t.val) :=
  (by decide +kernel : ∀ t : Fin grid0.N, _)

/-! ## What fills out an overhanging block is not read -/

/-- Matrix `r` of the buffer of `x`, when the fetch filled it, holds what was fetched, whatever fills out the rest. -/
theorem fill_fetched (t : Fin cfg0.N) (d d' : S16x196x768.Idx → Elt Ideal .f32) (g) (r : Fin 16) (p : Fin 196) (k : Fin 768)
    (hr : r.val < win0_3.xsize (grid0.coords t) (0 : Fin 3)) :
    win0_0.fill (grid0.coords t) d g (ix3 r p k) = win0_0.fill (grid0.coords t) d' g (ix3 r p k) := by
  obtain ⟨e0, e1, e2, -⟩ := grid_facts t
  have hm : win0_0.moved (grid0.coords t) (ix3 r p k) = true := (win0_0.moved_iff _ _).mpr fun b => by
    match b with
    | ⟨0, _⟩ => show r.val < win0_0.xsize (grid0.coords t) (0 : Fin 3); omega
    | ⟨1, _⟩ => show p.val < win0_0.xsize (grid0.coords t) (1 : Fin 3); have := p.isLt; omega
    | ⟨2, _⟩ => show k.val < win0_0.xsize (grid0.coords t) (2 : Fin 3); have := k.isLt; omega
  unfold Pipeline.Window.fill
  rw [dif_pos hm, dif_pos hm]

/-- So the part of the body's value the write-back moves is the same whatever fills out the block of `x`. -/
theorem local_ideal : Local (F := Ideal) m := by
  intro c t d0
  funext j
  obtain ⟨e0, e1, e2, e3, e4, -⟩ := grid_facts t
  have hj0 : (j 0).val < win0_3.xsize (grid0.coords t) (0 : Fin 3) := (j 0).isLt
  have hj1 : (j 1).val < win0_3.xsize (grid0.coords t) (1 : Fin 3) := (j 1).isLt
  have hj2 : (j 2).val < win0_3.xsize (grid0.coords t) (2 : Fin 3) := (j 2).isLt
  have hle : win0_3.xsize (grid0.coords t) (0 : Fin 3) ≤ 16 := win0_3.xsize_le (grid0.coords t) 0
  have hx : (win0_3.xinj (grid0.coords t) j : S16x64x64.Idx)
      = ix3 (⟨(j 0).val, by omega⟩ : Fin 16) (⟨(j 1).val, by omega⟩ : Fin 64) (⟨(j 2).val, by omega⟩ : Fin 64) :=
    funext fun b => Fin.ext (by
      match b with
      | ⟨0, _⟩ => rfl
      | ⟨1, _⟩ => rfl
      | ⟨2, _⟩ => rfl)
  show outBlock _ _ _ (win0_3.xinj (grid0.coords t) j) = outBlock _ _ _ (win0_3.xinj (grid0.coords t) j)
  rw [hx, outBlock_apply, outBlock_apply]
  refine Finset.sum_congr rfl fun p _ => ?_
  refine congrArg (· * _) (Finset.sum_congr rfl fun k _ => ?_)
  refine congrArg (· * _) ?_
  exact fill_fetched t d0 padX _ _ p k hj0

/-! ## The run and the frame -/

set_option backward.isDefEq.respectTransparency.types false in
/-- Every weakly fair execution of @main terminates; every array of the pipeline ends at what the write-backs leave
    and every other buffer as the lines after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m (local_ideal m) c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  The specification: the result as one function of the three argument arrays, entry by entry.

  For every batch element b < 8 and patch n < 197 the 196 × 768 matrix x[b, n] is multiplied on the left by the
  64 × 768 factor A (over the 768 channels) and the product, 196 × 64 read transposed, on the right by the 196 × 64
  factor B (over the 196 positions):

      out[b, n, a, h] = ∑ p < 196, (∑ k < 768, x[b, n, p, k] · A[a, k]) · B[p, h].
-/
import Idealize.ShloMosaic.PureOps.Ideal
import Idealize.ShloMosaic.Lib.ValueIdx

noncomputable section

namespace Cert.Spec

open Idealize.ShloMosaic Idealize.ShloMosaic.ValueIdx

/-- Entry (b, n, a, h) of the result. -/
def lowRankAt (x : FVec Ideal ⟨4, ![8, 197, 196, 768]⟩ .f32) (A : FVec Ideal ⟨2, ![64, 768]⟩ .f32)
    (B : FVec Ideal ⟨2, ![196, 64]⟩ .f32) (b : Fin 8) (n : Fin 197) (a : Fin 64) (h : Fin 64) : Ideal .f32 :=
  ∑ p : Fin 196, (∑ k : Fin 768, x (ix4 b n p k) * A (ix2 a k)) * B (ix2 p h)

/-- The result array. -/
def lowRank (x : FVec Ideal ⟨4, ![8, 197, 196, 768]⟩ .f32) (A : FVec Ideal ⟨2, ![64, 768]⟩ .f32)
    (B : FVec Ideal ⟨2, ![196, 64]⟩ .f32) : FVec Ideal ⟨4, ![8, 197, 64, 64]⟩ .f32 :=
  fun i => lowRankAt x A B (i 0) (i 1) (i 2) (i 3)

theorem lowRank_apply (x : FVec Ideal ⟨4, ![8, 197, 196, 768]⟩ .f32) (A : FVec Ideal ⟨2, ![64, 768]⟩ .f32)
    (B : FVec Ideal ⟨2, ![196, 64]⟩ .f32) (b : Fin 8) (n : Fin 197) (a : Fin 64) (h : Fin 64) :
    lowRank x A B (ix4 b n a h) = lowRankAt x A B b n a h := rfl

end Cert.Spec

end
-- ==== Proof.ValueIdeal.lean ====
/-
  The idealized kernel's result is the specification.

  The region works on `x` with its two batch axes merged: matrix N = 197 b + n of the merged array is x[b, n].  Point
  `t` writes back matrices 16 t … of the output, each entry the body's double sum over matrix N of the merged `x`
  and the two factors; the points' blocks cover the 1576 matrices, so the output array ends holding that double
  sum at every entry.  The last line splits the merged axis again: entry (b, n, a, h) of the result is entry
  (197 b + n, a, h) of the output, which is the specification's entry.
-/
import proofs.«168284_j31636729102794_2_alg».proof.Proof.RunIdeal
import proofs.«168284_j31636729102794_2_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation BodyObligationLoose cellOf)

variable (m : (ℓ : Loc nD τ sig) → Buf (Elt Ideal) ℓ) (ρ : Dev nD → PrngReg)

/-! ## The output array as one function of the region's arrays -/

/-- Entry (N, a, h) of the output over the merged batch axis. -/
def mergedAt (xr : Vec Ideal S1576x196x768 .f32) (A : Vec Ideal S64x768 .f32) (B : Vec Ideal S196x64 .f32)
    (N : Fin 1576) (a : Fin 64) (h : Fin 64) : Ideal .f32 :=
  ∑ p : Fin 196, (∑ k : Fin 768, xr (ix3 N p k) * A (ix2 a k)) * B (ix2 p h)

/-- The output array over the merged batch axis. -/
def merged (xr : Vec Ideal S1576x196x768 .f32) (A : Vec Ideal S64x768 .f32) (B : Vec Ideal S196x64 .f32) :
    Vec Ideal S1576x64x64 .f32 :=
  fun i => mergedAt xr A B (i 0) (i 1) (i 2)

/-! ## The blocks the body reads, as entries of the arrays -/

/-- The first factor's block is the factor. -/
theorem blkA_apply (c : Dev nD) (t : Fin cfg0.N) (a : Fin 64) (k : Fin 768) :
    iblk m c 1 t (ix2 a k) = V m c main_arg1 (ix2 a k) := by
  obtain ⟨-, -, -, -, -, -, -, -, -, -, -, e11, e12, -⟩ := grid_facts t
  show V m c main_arg1 (((cfg0.win 1).blk t).view.emb (ix2 a k)) = V m c main_arg1 (ix2 a k)
  refine congrArg (V m c main_arg1) (funext fun b => Fin.ext ?_)
  match b with
  | ⟨0, _⟩ => show win0_1.index t (0 : Fin 2) * 64 + 1 * a.val = a.val; omega
  | ⟨1, _⟩ => show win0_1.index t (1 : Fin 2) * 768 + 1 * k.val = k.val; omega

/-- The second factor's block is the factor. -/
theorem blkB_apply (c : Dev nD) (t : Fin cfg0.N) (p : Fin 196) (h : Fin 64) :
    iblk m c 2 t (ix2 p h) = V m c main_arg2 (ix2 p h) := by
  obtain ⟨-, -, -, -, -, -, -, -, -, -, -, -, -, e13, e14, -⟩ := grid_facts t
  show V m c main_arg2 (((cfg0.win 2).blk t).view.emb (ix2 p h)) = V m c main_arg2 (ix2 p h)
  refine congrArg (V m c main_arg2) (funext fun b => Fin.ext ?_)
  match b with
  | ⟨0, _⟩ => show win0_2.index t (0 : Fin 2) * 196 + 1 * p.val = p.val; omega
  | ⟨1, _⟩ => show win0_2.index t (1 : Fin 2) * 64 + 1 * h.val = h.val; omega

/-- Matrix `r` of the filled-out block of `x` at point `t`, when the fetch filled it, is matrix 16 t + r of the
    merged array. -/
theorem xfull_apply (c : Dev nD) (t : Fin cfg0.N) (r : Fin 16) (p : Fin 196) (k : Fin 768)
    (hr : r.val < win0_3.xsize (grid0.coords t) (0 : Fin 3)) (N : Fin 1576) (hN : N.val = 16 * t.val + r.val) :
    xfull m c t (ix3 r p k) = V m c main_v0 (ix3 N p k) := by
  obtain ⟨e0, e1, e2, -, -, e5, e6, e7, -⟩ := grid_facts t
  have hm : win0_0.moved (grid0.coords t) (ix3 r p k) = true := (win0_0.moved_iff _ _).mpr fun b => by
    match b with
    | ⟨0, _⟩ => show r.val < win0_0.xsize (grid0.coords t) (0 : Fin 3); omega
    | ⟨1, _⟩ => show p.val < win0_0.xsize (grid0.coords t) (1 : Fin 3); have := p.isLt; omega
    | ⟨2, _⟩ => show k.val < win0_0.xsize (grid0.coords t) (2 : Fin 3); have := k.isLt; omega
  unfold xfull Pipeline.Window.fill
  rw [dif_pos hm]
  show V m c main_v0 (((cfg0.win 0).blk t).view.emb _) = V m c main_v0 (ix3 N p k)
  refine congrArg (V m c main_v0) (funext fun b => Fin.ext ?_)
  match b with
  | ⟨0, _⟩ => show win0_0.index t (0 : Fin 3) * 16 + 1 * r.val = N.val; omega
  | ⟨1, _⟩ => show win0_0.index t (1 : Fin 3) * 196 + 1 * p.val = p.val; omega
  | ⟨2, _⟩ => show win0_0.index t (2 : Fin 3) * 768 + 1 * k.val = k.val; omega

/-! ## From the points' blocks to the array -/

/-- What point `t` writes back is block `t` of `merged` of the arrays as the region finds them. -/
theorem flushed3_eq (c : Dev nD) (t : Fin cfg0.N) :
    (dats m 0 c).flushed 3 t
      = ((cfg0.win 3).blk t).view.read (Elt Ideal) (merged (V m c main_v0) (V m c main_arg1) (V m c main_arg2)) := by
  show (cfg0.win 3).cut (grid0.coords t) ((dats m 0 c).after 3 t) = _
  rw [after0_3]
  funext j
  obtain ⟨-, -, -, e3, e4, -, -, -, e8, e9, e10, -, -, -, -, e15⟩ := grid_facts t
  have hj0 : (j 0).val < win0_3.xsize (grid0.coords t) (0 : Fin 3) := (j 0).isLt
  have hj1 : (j 1).val < win0_3.xsize (grid0.coords t) (1 : Fin 3) := (j 1).isLt
  have hj2 : (j 2).val < win0_3.xsize (grid0.coords t) (2 : Fin 3) := (j 2).isLt
  have ht : t.val < 99 := Nat.lt_of_lt_of_eq t.isLt (N_0 : cfg0.N = 99)
  have hx : (win0_3.xinj (grid0.coords t) j : S16x64x64.Idx)
      = ix3 (⟨(j 0).val, by omega⟩ : Fin 16) (⟨(j 1).val, by omega⟩ : Fin 64) (⟨(j 2).val, by omega⟩ : Fin 64) :=
    funext fun b => Fin.ext (by
      match b with
      | ⟨0, _⟩ => rfl
      | ⟨1, _⟩ => rfl
      | ⟨2, _⟩ => rfl)
  have he : (((cfg0.win 3).blk t).view.emb j : S1576x64x64.Idx)
      = ix3 (⟨16 * t.val + (j 0).val, by omega⟩ : Fin 1576) (⟨(j 1).val, by omega⟩ : Fin 64) (⟨(j 2).val, by omega⟩ : Fin 64) :=
    funext fun b => Fin.ext (by
      match b with
      | ⟨0, _⟩ => show win0_3.index t (0 : Fin 3) * 16 + 1 * (j 0).val = 16 * t.val + (j 0).val; omega
      | ⟨1, _⟩ => show win0_3.index t (1 : Fin 3) * 64 + 1 * (j 1).val = (j 1).val; omega
      | ⟨2, _⟩ => show win0_3.index t (2 : Fin 3) * 64 + 1 * (j 2).val = (j 2).val; omega)
  show outBlock _ _ _ (win0_3.xinj (grid0.coords t) j) = merged _ _ _ (((cfg0.win 3).blk t).view.emb j)
  rw [hx, he, outBlock_apply]
  show _ = mergedAt _ _ _ _ _ _
  unfold mergedAt
  refine Finset.sum_congr rfl fun p _ => ?_
  rw [blkB_apply]
  refine congrArg (· * _) (Finset.sum_congr rfl fun k _ => ?_)
  exact congrArg₂ (· * ·) (xfull_apply m c t _ p k hj0 ⟨16 * t.val + (j 0).val, by omega⟩ rfl) (blkA_apply m c t _ k)

/-- An entry of the output array is in point `t`'s block iff each coordinate is in the block's range inside the array. -/
theorem mem_blk3 (t : Fin cfg0.N) (i : S1576x64x64.Idx) :
    i ∈ ((cfg0.win 3).blk t).view.set ↔ ∀ a : Fin 3, win0_3.index t a * S16x64x64.size a ≤ (i a).val
      ∧ (i a).val < win0_3.index t a * S16x64x64.size a + win0_3.xsize (grid0.coords t) a := by
  show i ∈ ((View.whole main_v1).slice (win0_3.rect t)).set ↔ _
  rw [View.set_slice_whole, Rect.mem_set_unit]
  exact Iff.rfl

/-- Matrix N of the output is in the block of point N / 16. -/
theorem cover3 (i : S1576x64x64.Idx) :
    ∃ t : Fin cfg0.N, (cfg0.win 3).flush t = true ∧ i ∈ ((cfg0.win 3).blk t).view.set := by
  have hi0 : (i 0).val < 1576 := (i 0).isLt
  have hi1 : (i 1).val < 64 := (i 1).isLt
  have hi2 : (i 2).val < 64 := (i 2).isLt
  have hlt : (i 0).val / 16 < cfg0.N := by rw [show cfg0.N = 99 from N_0]; omega
  obtain ⟨-, -, -, e3, e4, -, -, -, e8, e9, e10, -, -, -, -, e15⟩ := grid_facts ⟨(i 0).val / 16, hlt⟩
  have ht : (⟨(i 0).val / 16, hlt⟩ : Fin cfg0.N).val = (i 0).val / 16 := rfl
  refine ⟨⟨(i 0).val / 16, hlt⟩, flush0_3 _, (mem_blk3 _ i).mpr fun a => ?_⟩
  match a with
  | ⟨0, _⟩ =>
    show win0_3.index ⟨(i 0).val / 16, hlt⟩ (0 : Fin 3) * 16 ≤ (i 0).val
      ∧ (i 0).val < win0_3.index ⟨(i 0).val / 16, hlt⟩ (0 : Fin 3) * 16 + win0_3.xsize (grid0.coords ⟨(i 0).val / 16, hlt⟩) (0 : Fin 3)
    omega
  | ⟨1, _⟩ =>
    show win0_3.index ⟨(i 0).val / 16, hlt⟩ (1 : Fin 3) * 64 ≤ (i 1).val
      ∧ (i 1).val < win0_3.index ⟨(i 0).val / 16, hlt⟩ (1 : Fin 3) * 64 + win0_3.xsize (grid0.coords ⟨(i 0).val / 16, hlt⟩) (1 : Fin 3)
    omega
  | ⟨2, _⟩ =>
    show win0_3.index ⟨(i 0).val / 16, hlt⟩ (2 : Fin 3) * 64 ≤ (i 2).val
      ∧ (i 2).val < win0_3.index ⟨(i 0).val / 16, hlt⟩ (2 : Fin 3) * 64 + win0_3.xsize (grid0.coords ⟨(i 0).val / 16, hlt⟩) (2 : Fin 3)
    omega

/-- The output array after the run. -/
theorem final3 (c : Dev nD) :
    (dats m 0 c).arrAt 3 cfg0.N = merged (V m c main_v0) (V m c main_arg1) (V m c main_arg2) :=
  (dats m 0 c).arrAt_eq_of_cover 3 _ (fun t _ => flushed3_eq m c t) cover3

/-! ## The host lines around the region -/

/-- The region's `x` is the argument with its two batch axes merged. -/
theorem V_main_v0 (c : Dev nD) :
    (V m c main_v0 : Vec Ideal S1576x196x768 .f32)
      = shapeCast S1576x196x768 (m ((c : Thread nD τ).loc main_arg0)) Facts₀.shapeCasts_S8x197x196x768_S1576x196x768 := by
  show StableHlo.after hostOps0 (fun b => m (c, b)) (Proc.devRef .tc main_v0) = _
  after_results
  rfl

/-- Matrix 197 b + n of the merged array is x[b, n]. -/
theorem merged_x_apply (c : Dev nD) (b : Fin 8) (n : Fin 197) (p : Fin 196) (k : Fin 768) (N : Fin 1576)
    (hN : N.val = b.val * 197 + n.val) :
    V m c main_v0 (ix3 N p k) = m ((c : Thread nD τ).loc main_arg0) (ix4 b n p k) := by
  rw [V_main_v0]
  exact shapeCast_apply _ _ (ix3 N p k) (ix4 b n p k) (by
    rw [Shape.rowMajor_val_four, Shape.rowMajor_val_three]
    show ((b.val * 197 + n.val) * 196 + p.val) * 768 + k.val = (N.val * 196 + p.val) * 768 + k.val
    rw [hN])

/-- The program's result after the last line: the output array with its leading axis split. -/
theorem tail_eq (c : Dev nD) :
    Pipeline.afterTail₀ cfgs (dats m) 0 (V0 m) [hostOps1] c main_v2
      = shapeCast S8x197x64x64 (merged (V m c main_v0) (V m c main_arg1) (V m c main_arg2))
          Facts₀.shapeCasts_S1576x64x64_S8x197x64x64 := by
  have hw : Pipeline.withArrays (cfgs 0).spec c (V0 m c) (fun w => (dats m 0 c).arrAt w (cfgs 0).N) (Proc.devRef .tc main_v1)
      = merged (V m c main_v0) (V m c main_arg1) (V m c main_arg2) :=
    (Pipeline.withArrays_arr spec0 launch0.win.arr_inj c _ _ 3).trans (final3 m c)
  unfold Pipeline.afterTail₀
  show StableHlo.after hostOps1 _ (Proc.devRef .tc main_v2) = _
  after_results
  rw [hw]
  rfl

/-- The program's result is the specification of the three arguments. -/
theorem result_eq (c : Dev nD) :
    Pipeline.afterTail₀ cfgs (dats m) 0 (V0 m) [hostOps1] c main_v2
      = Cert.Spec.lowRank (m ((c : Thread nD τ).loc main_arg0)) (m ((c : Thread nD τ).loc main_arg1))
          (m ((c : Thread nD τ).loc main_arg2)) := by
  rw [tail_eq]
  funext i
  obtain ⟨b, n, a, h, rfl⟩ : ∃ (b : Fin 8) (n : Fin 197) (a : Fin 64) (h : Fin 64), i = ix4 b n a h :=
    ⟨i 0, i 1, i 2, i 3, eq_ix4 i⟩
  have hb := b.isLt
  have hn := n.isLt
  rw [Cert.Spec.lowRank_apply]
  refine (shapeCast_apply _ _ (ix4 b n a h) (ix3 (⟨b.val * 197 + n.val, by omega⟩ : Fin 1576) a h) (by
    rw [Shape.rowMajor_val_four, Shape.rowMajor_val_three]
    rfl)).trans ?_
  show mergedAt _ _ _ _ _ _ = _
  unfold mergedAt Cert.Spec.lowRankAt
  refine Finset.sum_congr rfl fun p _ => ?_
  rw [V_main_arg2]
  refine congrArg (· * _) (Finset.sum_congr rfl fun k _ => ?_)
  rw [V_main_arg1, merged_x_apply m c b n p k _ rfl]

/-! ## The run, read -/

/-- Every weakly fair execution of @main terminates with the result at the specification of the arguments and the
    arguments unchanged. -/
theorem run_value : θ_run defs (onTc (τ := τ) (main (F := Ideal))) ⟨m, fun _ => 0, ρ⟩ (fun r => ∀ c : Dev nD,
      r.2.mem ((c.tc : Thread nD τ).loc main_v2)
          = Cert.Spec.lowRank (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩) (run_main m ρ)

end Cert.KernelIdeal.Hand

end
-- ==== Proof.RefIdeal.lean ====
/-
  The reference computes the specification.

  The reference multiplies the factor A with x over the channels (entry (a, b, n, p) is the sum over k of
  A[a, k] · x[b, n, p, k]), moves the factor's axis behind the batch axes, and multiplies with B over the positions.
  Entry by entry that is the specification's double sum with the two factors of the inner product exchanged.
-/
import proofs.«168284_j31636729102794_2_alg».proof.Proof.Gen.ReferenceIdeal.Read
import proofs.«168284_j31636729102794_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

theorem ref_eq (x : FVec Ideal S8x197x196x768 .f32) (A : FVec Ideal S64x768 .f32) (B : FVec Ideal S196x64 .f32) :
    val_main_v2 (F := Ideal) x A B = Cert.Spec.lowRank x A B := by
  funext i
  obtain ⟨b, n, a, h, rfl⟩ : ∃ (b : Fin 8) (n : Fin 197) (a : Fin 64) (h : Fin 64), i = ix4 b n a h :=
    ⟨i 0, i 1, i 2, i 3, eq_ix4 i⟩
  rw [val_main_v2_apply, Cert.Spec.lowRank_apply]
  unfold Cert.Spec.lowRankAt
  refine Finset.sum_congr rfl fun p _ => ?_
  rw [val_main_v1_apply, val_main_v0_apply]
  have eB : ridx_main_v2 (ix4 b n a h) p = ix2 p h := funext fun d => Fin.ext (by
    match d with
    | ⟨0, _⟩ => rfl
    | ⟨1, _⟩ => rfl)
  rw [eB]
  refine congrArg (· * B (ix2 p h)) (Finset.sum_congr rfl fun k _ => ?_)
  have eA : lidx_main_v0 (idx_main_v1 (lidx_main_v2 (ix4 b n a h) p)) k = ix2 a k := funext fun d => Fin.ext (by
    match d with
    | ⟨0, _⟩ => rfl
    | ⟨1, _⟩ => rfl)
  have eX : ridx_main_v0 (idx_main_v1 (lidx_main_v2 (ix4 b n a h) p)) k = ix4 b n p k := funext fun d => Fin.ext (by
    match d with
    | ⟨0, _⟩ => rfl
    | ⟨1, _⟩ => rfl
    | ⟨2, _⟩ => rfl
    | ⟨3, _⟩ => rfl)
  rw [eA, eX]
  exact mul_comm _ _

end Cert.ReferenceIdeal.RefValue

end
-- ==== Proof.lean ====
/-
  The kernel computes, for each of the 8 · 197 matrices x[b, n] (196 positions × 768 channels), the 64 × 64 matrix
  A · x[b, n]ᵀ · B with A a 64 × 768 and B a 196 × 64 factor:

      out[b, n, a, h] = ∑ p < 196, (∑ k < 768, x[b, n, p, k] · A[a, k]) · B[p, h].

  It merges the two batch axes into one of 1576 matrices and works on sixteen of them per grid point; 1576 is not a
  multiple of sixteen, so the last of the 99 points fetches and writes back eight matrices only and the rest of its
  buffers holds words nothing names.  The reference is two einsums over the unmerged array: A against x over the
  channels, then the result against B over the positions.

  Over the extended reals a change of float format is the identity and both programs' matrix products are plain
  sums of products, nested the same way; they differ only in the order of the two factors of the inner product,
  and multiplication commutes.  No finiteness of the inputs is used.

  The frames: the word-level kernel's with the output window forgotten (Proof/FrameBits.lean); the idealized
  kernel's from the run that names every array (Proof/RunIdeal.lean), which needs the body's value on the matrices a
  write-back moves to depend only on the matrices the fetch filled — true of the double sum, matrix by matrix; the
  reference's from its run.  The value: the output array after the run is the double sum over the merged array
  (Proof/ValueIdeal.lean), its leading axis split again by the last line; the reference's result is the same double
  sum (Proof/RefIdeal.lean).  The ideal pass rewrote nothing, so nothing is to be preserved.
-/
import proofs.«168284_j31636729102794_2_alg».proof.Defs
import proofs.«168284_j31636729102794_2_alg».proof.Proof.Gen.Kernel
import proofs.«168284_j31636729102794_2_alg».proof.Proof.Gen.KernelIdeal
import proofs.«168284_j31636729102794_2_alg».proof.Proof.Gen.ReferenceIdeal
import proofs.«168284_j31636729102794_2_alg».proof.Proof.Gen.Pre_finite_inputs
import proofs.«168284_j31636729102794_2_alg».proof.Proof.FrameBits
import proofs.«168284_j31636729102794_2_alg».proof.Proof.ValueIdeal
import proofs.«168284_j31636729102794_2_alg».proof.Proof.RefIdeal
import Idealize.ShloMosaic.Adequacy
import Idealize.ShloMosaic.Init

noncomputable section

namespace Cert.Proof

open Idealize.ShloMosaic Idealize.SL.Sem

/-- The word-level kernel runs to the end and leaves its arguments as they were. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both idealized programs end with the specification's array of those
    arguments as their result. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
